-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512 : Shape := ⟨3, ![2, 512, 512]⟩
abbrev S512x512 : Shape := ⟨2, ![512, 512]⟩
abbrev S512 : Shape := ⟨1, ![512]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S2x512x512 .f32) (main_arg1 : FVec F S512x512 .f32) (main_arg2 : FVec F S512 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S2x512x512 : Shape := ⟨3, ![2, 512, 512]⟩
abbrev S512x512 : Shape := ⟨2, ![512, 512]⟩
abbrev S512 : Shape := ⟨1, ![512]⟩
abbrev S1024x512 : Shape := ⟨2, ![1024, 512]⟩
abbrev S1x512 : Shape := ⟨2, ![1, 512]⟩
abbrev S256x512 : Shape := ⟨2, ![256, 512]⟩
abbrev S16x512 : Shape := ⟨2, ![16, 512]⟩
abbrev S16x128 : Shape := ⟨2, ![16, 128]⟩
abbrev S512x128 : Shape := ⟨2, ![512, 128]⟩
abbrev S16x1x128 : Shape := ⟨3, ![16, 1, 128]⟩
abbrev S1x512x128 : Shape := ⟨3, ![1, 512, 128]⟩
abbrev S16x512x128 : Shape := ⟨3, ![16, 512, 128]⟩

abbrev nBuf : Space → Nat
  | .hbm => 7
  | .vmem => 6
  | .smem => 0
  | _ => 0

abbrev bufTy : (tb : Table) → Fin (tcTables nBuf tb) → BufTy
  | .hbm, ⟨0, _⟩ => ⟨S2x512x512, .f32⟩
  | .hbm, ⟨1, _⟩ => ⟨S512x512, .f32⟩
  | .hbm, ⟨2, _⟩ => ⟨S512, .f32⟩
  | .hbm, ⟨3, _⟩ => ⟨S1024x512, .f32⟩
  | .hbm, ⟨4, _⟩ => ⟨S1x512, .f32⟩
  | .hbm, ⟨5, _⟩ => ⟨S1024x512, .f32⟩
  | .hbm, ⟨6, _⟩ => ⟨S2x512x512, .f32⟩
  | .local _ .vmem, ⟨0, _⟩ => ⟨S256x512, .f32⟩
  | .local _ .vmem, ⟨1, _⟩ => ⟨S256x512, .f32⟩
  | .local _ .vmem, ⟨2, _⟩ => ⟨S512x512, .f32⟩
  | .local _ .vmem, ⟨3, _⟩ => ⟨S1x512, .f32⟩
  | .local _ .vmem, ⟨4, _⟩ => ⟨S256x512, .f32⟩
  | .local _ .vmem, ⟨5, _⟩ => ⟨S256x512, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32_3 : BitVec 32 := 0#32
  let c0_i32 : BitVec 32 := 0#32
  let c1_i32 : BitVec 32 := 1#32
  let arg5 : BitVec 32 := Scf.iv c0_i32 c1_i32 k0_t1
  let c1_i32_2 : BitVec 32 := 1#32
  let v5 : BitVec 32 := Scalar.muli arg5 c1_i32_2
  let v6 : BitVec 32 := Scalar.addi c0_i32_3 v5
  let c16_i32_4 : BitVec 32 := 16#32
  let v7 : BitVec 32 := Scalar.muli v6 c16_i32_4
  v7
def k0_mult2 : BitVec 32 :=
  let c0_i32_6 : BitVec 32 := 0#32
  let c128_i32 : BitVec 32 := 128#32
  let v11 : BitVec 32 := Scalar.muli c0_i32_6 c128_i32
  v11
def k0_off1 (k0_t1 : Fin k0_t1_loop.trips) (c0_i32_6 : BitVec 32) : Fin 2 → Nat :=
  let c0_i32_3 : BitVec 32 := 0#32
  let c0_i32 : BitVec 32 := 0#32
  let c1_i32 : BitVec 32 := 1#32
  let arg5 : BitVec 32 := Scf.iv c0_i32 c1_i32 k0_t1
  let c1_i32_2 : BitVec 32 := 1#32
  let v5 : BitVec 32 := Scalar.muli arg5 c1_i32_2
  let v6 : BitVec 32 := Scalar.addi c0_i32_3 v5
  let c16_i32_4 : BitVec 32 := 16#32
  let v7 : BitVec 32 := Scalar.muli v6 c16_i32_4
  let v8 : BitVec 32 := v7
  let v13 : Index := Scalar.indexCast v8
  let c128_i32 : BitVec 32 := 128#32
  let v11 : BitVec 32 := Scalar.muli c0_i32_6 c128_i32
  let v12 : BitVec 32 := v11
  let v14 : Index := Scalar.indexCast v12
  ![v13.toNat, v14.toNat]
def k0_off2 (c0_i32_6 : BitVec 32) : Fin 2 → Nat :=
  let c0_7 : Index := 0#32
  let c128_i32 : BitVec 32 := 128#32
  let v11 : BitVec 32 := Scalar.muli c0_i32_6 c128_i32
  let v12 : BitVec 32 := v11
  let v17 : Index := Scalar.indexCast v12
  ![0, v17.toNat]
def k0_mult3 : BitVec 32 :=
  let c1_i32_10 : BitVec 32 := 1#32
  let c128_i32_11 : BitVec 32 := 128#32
  let v28 : BitVec 32 := Scalar.muli c1_i32_10 c128_i32_11
  v28
def k0_mult4 : BitVec 32 :=
  let c2_i32 : BitVec 32 := 2#32
  let c128_i32_15 : BitVec 32 := 128#32
  let v45 : BitVec 32 := Scalar.muli c2_i32 c128_i32_15
  v45
def k0_mult5 : BitVec 32 :=
  let c3_i32 : BitVec 32 := 3#32
  let c128_i32_19 : BitVec 32 := 128#32
  let v62 : BitVec 32 := Scalar.muli c3_i32 c128_i32_19
  v62
def k0_off3 (k0_t1 : Fin k0_t1_loop.trips) : Fin 2 → Nat :=
  let c0_i32_3 : BitVec 32 := 0#32
  let c0_i32 : BitVec 32 := 0#32
  let c1_i32 : BitVec 32 := 1#32
  let arg5 : BitVec 32 := Scf.iv c0_i32 c1_i32 k0_t1
  let c1_i32_2 : BitVec 32 := 1#32
  let v5 : BitVec 32 := Scalar.muli arg5 c1_i32_2
  let v6 : BitVec 32 := Scalar.addi c0_i32_3 v5
  let c16_i32_4 : BitVec 32 := 16#32
  let v7 : BitVec 32 := Scalar.muli v6 c16_i32_4
  let v8 : BitVec 32 := v7
  let v81 : Index := Scalar.indexCast v8
  let c0_23 : Index := 0#32
  ![v81.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x512x512_S1024x512 : S2x512x512.ShapeCasts S1024x512
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  h_S16x128 : 0 < S16x128.numel
  shapeCasts_S16x128_S16x128 : S16x128.ShapeCasts S16x128
  h_S512x128 : 0 < S512x128.numel
  shapeCasts_S16x128_S16x1x128 : S16x128.ShapeCasts S16x1x128
  shapeCasts_S512x128_S1x512x128 : S512x128.ShapeCasts S1x512x128
  broadcasts_S16x1x128_S16x512x128 : S16x1x128.Broadcasts S16x512x128
  broadcasts_S1x512x128_S16x512x128 : S1x512x128.Broadcasts S16x512x128
  reduces_S16x512x128_S16x512 : S16x512x128.Reduces [2] S16x512
  h_S16x512 : 0 < S16x512.numel
  shapeCasts_S1024x512_S2x512x512 : S1024x512.ShapeCasts S2x512x512
  hrank0 : 0 < grid0.rank
  k0_t1_ok : k0_t1_loop.OK
  k0_mult1_dvd : ∀ k0_t1 : Fin k0_t1_loop.trips, 16 ∣ (k0_mult1 k0_t1).toNat
  k0_mult2_dvd : 128 ∣ k0_mult2.toNat
  k0_off1_inb : ∀ k0_t1 : Fin k0_t1_loop.trips, ∀ (r : Fin 4), ∀ a, (k0_off1 k0_t1 (BitVec.ofNat 32 r.val)) a + S16x128.size a ≤ S256x512.size a
  k0_off2_inb : ∀ (r : Fin 4), ∀ a, (k0_off2 (BitVec.ofNat 32 r.val)) a + S512x128.size a ≤ S512x512.size a
  k0_mult3_dvd : 128 ∣ k0_mult3.toNat
  k0_mult4_dvd : 128 ∣ k0_mult4.toNat
  k0_mult5_dvd : 128 ∣ k0_mult5.toNat
  k0_off3_inb : ∀ k0_t1 : Fin k0_t1_loop.trips, ∀ a, (k0_off3 k0_t1) a + S16x512.size a ≤ S256x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S1024x512.size a
  hwx0_3 : ∀ i : grid0.Coords, EltTy.bits .f32 = 32 ∨ (Rect.block (s := S1024x512) S256x512.size (cc0_transform_3 i) (hinb0_3 i)).WholeWords (EltTy.packing .f32)

variable [Facts₀]

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x512x512 : Shape := ⟨3, ![2, 512, 512]⟩
abbrev S512x512 : Shape := ⟨2, ![512, 512]⟩
abbrev S512 : Shape := ⟨1, ![512]⟩
abbrev S1024x512 : Shape := ⟨2, ![1024, 512]⟩
abbrev S1024x1x512 : Shape := ⟨3, ![1024, 1, 512]⟩
abbrev S1x512x512 : Shape := ⟨3, ![1, 512, 512]⟩
abbrev S1024x512x512 : Shape := ⟨3, ![1024, 512, 512]⟩
abbrev S_ : Shape := ⟨0, ![]⟩
abbrev S1x512 : Shape := ⟨2, ![1, 512]⟩

abbrev nBuf : Space → Nat
  | .hbm => 18
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S512x512, .f32⟩
  | .hbm, ⟨2, _⟩ => ⟨S512, .f32⟩
  | .hbm, ⟨3, _⟩ => ⟨S1024x512, .f32⟩
  | .hbm, ⟨4, _⟩ => ⟨S1024x1x512, .f32⟩
  | .hbm, ⟨5, _⟩ => ⟨S1x512x512, .f32⟩
  | .hbm, ⟨6, _⟩ => ⟨S1024x512x512, .f32⟩
  | .hbm, ⟨7, _⟩ => ⟨S1024x512x512, .f32⟩
  | .hbm, ⟨8, _⟩ => ⟨S1024x512x512, .f32⟩
  | .hbm, ⟨9, _⟩ => ⟨S_, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1x512, .f32⟩
  | .hbm, ⟨15, _⟩ => ⟨S1024x512, .f32⟩
  | .hbm, ⟨16, _⟩ => ⟨S1024x512, .f32⟩
  | .hbm, ⟨17, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S2x512x512_S1024x512 : S2x512x512.ShapeCasts S1024x512
  bcast_S1024x512_S1024x1x512_0_2 : S1024x512.BroadcastsInDim S1024x1x512 (![0, 2] : Fin 2 → Fin S1024x1x512.rank)
  bcast_S512x512_S1x512x512_1_2 : S512x512.BroadcastsInDim S1x512x512 (![1, 2] : Fin 2 → Fin S1x512x512.rank)
  bcast_S1024x1x512_S1024x512x512_0_1_2 : S1024x1x512.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  reducesTo_S1024x512x512_S1024x512_d2 : S1024x512x512.ReducesTo [2] S1024x512
  h_S_ : 0 < S_.numel
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  shapeCasts_S1024x512_S2x512x512 : S1024x512.ShapeCasts S2x512x512

variable [Facts₀]

class Facts : Prop extends Facts₀ where

variable [Facts]
-- ==== Proof.Spec.lean ====
/-
  The function both programs compute, entry by entry, on the extended reals.

  `X` is a [1024, 512] array (the input with its two leading axes merged), `W` a [512, 512] matrix and `bias`
  a vector of 512. For a row `p` of `X` and a row `o` of `W` take the 512 products `X[p,k] * W[o,k]`. Entry
  (p, o) of the result is (their maximum + their minimum) + `bias[o]`, in that order of addition. The maximum
  is folded from the value of the f32 word 0xFF800000 and the minimum from that of 0x7F800000, the words both
  programs start their folds from; neither word is evaluated here. The whole result is this [1024, 512] array
  with its leading axis split back into [2, 512].
-/
import Idealize.ShloMosaic.PureOps.Ideal
import Idealize.ShloMosaic.Lib.ValueIdx

noncomputable section

namespace Cert.MaxPlusMin

open Idealize.ShloMosaic Idealize.ShloMosaic.ValueIdx

/-- The value the running maximum starts from. -/
abbrev maxStart : Ideal .f32 := FloatOps.ofBits (F := Ideal) .f32 0xFF800000#32
/-- The value the running minimum starts from. -/
abbrev minStart : Ideal .f32 := FloatOps.ofBits (F := Ideal) .f32 0x7F800000#32

/-- The 512 products of row `p` of `X` with row `o` of `W`. -/
def prods (X : FVec Ideal ⟨2, ![1024, 512]⟩ .f32) (W : FVec Ideal ⟨2, ![512, 512]⟩ .f32) (p : Fin 1024) (o : Fin 512) :
    Fin 512 → Ideal .f32 :=
  fun k => X (ix2 p k) * W (ix2 o k)

/-- Entry (p, o): (maximum of the products + minimum of the products) + bias[o]. -/
def entry (X : FVec Ideal ⟨2, ![1024, 512]⟩ .f32) (W : FVec Ideal ⟨2, ![512, 512]⟩ .f32) (bias : FVec Ideal ⟨1, ![512]⟩ .f32)
    (p : Fin 1024) (o : Fin 512) : Ideal .f32 :=
  (Finset.univ.fold max maxStart (prods X W p o) + Finset.univ.fold min minStart (prods X W p o)) + bias (ix1 o)

/-- The [1024, 512] array of the entries. -/
def rows (X : FVec Ideal ⟨2, ![1024, 512]⟩ .f32) (W : FVec Ideal ⟨2, ![512, 512]⟩ .f32) (bias : FVec Ideal ⟨1, ![512]⟩ .f32) :
    FVec Ideal ⟨2, ![1024, 512]⟩ .f32 :=
  fun i => entry X W bias (i 0) (i 1)

theorem rows_apply (X : FVec Ideal ⟨2, ![1024, 512]⟩ .f32) (W : FVec Ideal ⟨2, ![512, 512]⟩ .f32) (bias : FVec Ideal ⟨1, ![512]⟩ .f32)
    (p : Fin 1024) (o : Fin 512) : rows X W bias (ix2 p o) = entry X W bias p o := rfl

/-- The result as both programs lay it out: the [2, 512, 512] input read as [1024, 512], the entries, and the
    [1024, 512] array read back as [2, 512, 512]. The two re-layouts are the same operation in both programs
    and are never opened. -/
def result (h1 : (⟨3, ![2, 512, 512]⟩ : Shape).ShapeCasts ⟨2, ![1024, 512]⟩)
    (h2 : (⟨2, ![1024, 512]⟩ : Shape).ShapeCasts ⟨3, ![2, 512, 512]⟩)
    (x : FVec Ideal ⟨3, ![2, 512, 512]⟩ .f32) (W : FVec Ideal ⟨2, ![512, 512]⟩ .f32) (bias : FVec Ideal ⟨1, ![512]⟩ .f32) :
    FVec Ideal ⟨3, ![2, 512, 512]⟩ .f32 :=
  shapeCast _ (rows (shapeCast _ x h1) W bias) h2

end Cert.MaxPlusMin

end
-- ==== Proof.RefValue.lean ====
/-
  What the reference program computes, entry by entry, on the extended reals.

  The reference first merges the two leading axes of its [2, 512, 512] input into a [1024, 512] array X. It then
  forms the [1024, 512, 512] array of all products P[p, o, k] = X[p, k] * W[o, k] (each factor is a broadcast:
  X along a new middle axis, W along a new leading axis), folds P over its last axis twice, once with the maximum
  from the value of the word 0xFF800000 and once with the minimum from the value of the word 0x7F800000, adds the
  two folds, adds the bias broadcast along the rows, and splits the leading axis back into [2, 512].

  A fold of a commutative and associative operation over ONE axis is, at a result index (p, o), the fold over the
  coordinates k of that axis of the operand at (p, o, k). Maximum and minimum of extended reals are commutative and
  associative, so entry (p, o) before the final split is
      (max_k X[p,k] * W[o,k]  +  min_k X[p,k] * W[o,k])  +  bias[o],
  with the two folds started from the values of the same two words: exactly the specification's entry. The
  merge and the split of the leading axes are the same operations in the specification, so they are never opened.
-/
import proofs.«171334_j83047487635670_2_alg».proof.Proof.Gen.ReferenceIdeal.Read
import proofs.«171334_j83047487635670_2_alg».proof.Proof.Spec
import Idealize.ShloMosaic.PureOps.Ideal.Laws
import Idealize.ShloMosaic.Lib.ValueIdx
import Idealize.ShloMosaic.Lib.Pipeline.Value

noncomputable section
namespace Cert.ReferenceIdeal.RefValue
open Idealize.ShloMosaic Idealize.ShloMosaic.ValueIdx Cert.ReferenceIdeal Cert.ReferenceIdeal.Gen Cert.ReferenceIdeal.Read

/-- Dropping the last axis of a [1024, 512, 512] array leaves a [1024, 512] array. -/
theorem reduces_last : S1024x512x512.Reduces [2] S1024x512 := by decide

/-- The index over (p, o) whose coordinate on the dropped last axis is k is (p, o, k). -/
theorem lift_eq (p : Fin 1024) (o : Fin 512) (k : Fin 512) :
    reduces_last.lift (ix2 p o) k = ix3 p o k := by
  funext c
  match c with
  | ⟨0, _⟩ => exact Fin.ext rfl
  | ⟨1, _⟩ => exact Fin.ext rfl
  | ⟨2, _⟩ => exact Fin.ext rfl

/-- The left factor at (p, o, k) is read from the merged input at (p, k): the two broadcasts only repeat it along o. -/
theorem left_index (p : Fin 1024) (o : Fin 512) (k : Fin 512) :
    idx_main_v1 (idx_main_v3 (ix3 p o k)) = ix2 p k := by
  funext a
  match a with
  | ⟨0, _⟩ => rfl
  | ⟨1, _⟩ => rfl

/-- The right factor at (p, o, k) is read from the matrix at (o, k): the two broadcasts only repeat it along p. -/
theorem right_index (p : Fin 1024) (o : Fin 512) (k : Fin 512) :
    idx_main_v2 (idx_main_v4 (ix3 p o k)) = ix2 o k := by
  funext a
  match a with
  | ⟨0, _⟩ => rfl
  | ⟨1, _⟩ => rfl

/-- The bias term at (p, o) is read from the bias vector at o: the two broadcasts only repeat it along p. -/
theorem bias_index (p : Fin 1024) (o : Fin 512) :
    idx_main_v9 (idx_main_v10 (ix2 p o)) = ix1 o := by
  funext a
  match a with
  | ⟨0, _⟩ => rfl

/-- The product array at (p, o, k) is X[p, k] * W[o, k], X the merged input. -/
theorem product_apply (x0 : FVec Ideal S2x512x512 .f32) (x1 : FVec Ideal S512x512 .f32) (p : Fin 1024) (o : Fin 512)
    (k : Fin 512) :
    val_main_v5 (F := Ideal) x0 x1 (ix3 p o k) = val_main_v0 (F := Ideal) x0 (ix2 p k) * x1 (ix2 o k) := by
  rw [val_main_v5_apply, val_main_v3_apply, val_main_v1_apply, val_main_v4_apply, val_main_v2_apply, left_index,
    right_index]
  rfl

/-- The products the two folds at (p, o) run over are the specification's products of row p with row o. -/
theorem products_eq (x0 : FVec Ideal S2x512x512 .f32) (x1 : FVec Ideal S512x512 .f32) (p : Fin 1024) (o : Fin 512) :
    (val_main_v5 (F := Ideal) x0 x1 ∘ reduces_last.lift (ix2 p o))
      = Cert.MaxPlusMin.prods (val_main_v0 (F := Ideal) x0) x1 p o := by
  refine funext fun (k : Fin 512) => ?_
  show val_main_v5 (F := Ideal) x0 x1 (reduces_last.lift (ix2 p o) k) = _
  rw [lift_eq, product_apply]
  rfl

/-- The maximum stage at (p, o): the fold of max over the products, from the value of the word it starts from. -/
theorem max_apply (x0 : FVec Ideal S2x512x512 .f32) (x1 : FVec Ideal S512x512 .f32) (p : Fin 1024) (o : Fin 512) :
    val_main_v6 (F := Ideal) x0 x1 (ix2 p o)
      = Finset.univ.fold max Cert.MaxPlusMin.maxStart (Cert.MaxPlusMin.prods (val_main_v0 (F := Ideal) x0) x1 p o) := by
  unfold val_main_v6
  rw [Host.reduce_eq_fold_single _ _ _ reducesTo_S1024x512x512_S1024x512_d2 reduces_last h_S_, products_eq]
  rfl

/-- The minimum stage at (p, o): the fold of min over the products, from the value of the word it starts from. -/
theorem min_apply (x0 : FVec Ideal S2x512x512 .f32) (x1 : FVec Ideal S512x512 .f32) (p : Fin 1024) (o : Fin 512) :
    val_main_v7 (F := Ideal) x0 x1 (ix2 p o)
      = Finset.univ.fold min Cert.MaxPlusMin.minStart (Cert.MaxPlusMin.prods (val_main_v0 (F := Ideal) x0) x1 p o) := by
  unfold val_main_v7
  rw [Host.reduce_eq_fold_single _ _ _ reducesTo_S1024x512x512_S1024x512_d2 reduces_last h_S_, products_eq]
  rfl

/-- Before the final split of the leading axis the reference's array is the specification's array of entries. -/
theorem rows_eq (x0 : FVec Ideal S2x512x512 .f32) (x1 : FVec Ideal S512x512 .f32) (x2 : FVec Ideal S512 .f32) :
    val_main_v11 (F := Ideal) x0 x1 x2 = Cert.MaxPlusMin.rows (val_main_v0 (F := Ideal) x0) x1 x2 := by
  funext i
  obtain ⟨p, o, rfl⟩ : ∃ (p : Fin 1024) (o : Fin 512), i = ix2 p o := ⟨i 0, i 1, eq_ix2 i⟩
  rw [Cert.MaxPlusMin.rows_apply, val_main_v11_apply, val_main_v8_apply, val_main_v10_apply, val_main_v9_apply,
    bias_index, max_apply, min_apply]
  rfl

/-- The reference's result is the specification's: the same entries between the same two re-layouts. -/
theorem result_eq (x0 : FVec Ideal S2x512x512 .f32) (x1 : FVec Ideal S512x512 .f32) (x2 : FVec Ideal S512 .f32) :
    val_main_v12 (F := Ideal) x0 x1 x2
      = Cert.MaxPlusMin.result Cert.ReferenceIdeal.Gen.shapeCasts_S2x512x512_S1024x512 Cert.ReferenceIdeal.Gen.shapeCasts_S1024x512_S2x512x512 x0 x1 x2 := by
  unfold val_main_v12 Cert.MaxPlusMin.result
  rw [rows_eq]
  rfl

end Cert.ReferenceIdeal.RefValue

end
-- ==== Proof.LibChunkFold.lean ====
/-
  A maximum (or a minimum) over 512 terms taken 128 at a time.

  In a linear order, start from any element `b`, and four times over replace the running value by its maximum
  with "the maximum of `b` and the next 128 terms". The result is the maximum of `b` and all 512 terms: `max`
  is associative, commutative and idempotent, so the extra copies of `b` and the grouping do not matter. The
  proof compares upper bounds: an element bounds either side exactly when it bounds `b` and every term. The
  statement for the minimum is the dual one, by lower bounds. Nothing about `b` is used: it need not be a
  bottom or top element.
-/
import Mathlib.Data.Finset.Fold
import Mathlib.Data.Fintype.Card
import Mathlib.Order.Lattice

namespace ChunkFold

variable {α : Type*} [LinearOrder α]

/-- The running maximum over four consecutive chunks of 128 terms, each chunk's maximum folded from `b`, is the
    maximum of all 512 terms folded from `b`. The chunks are given as functions `g0 … g3` on `Fin 128` that
    agree with `f` at 0·128 + j, 1·128 + j, 2·128 + j and 3·128 + j. -/
theorem fold_max_four_chunks (b : α) (f : Fin 512 → α) (g0 g1 g2 g3 : Fin 128 → α)
    (h0 : ∀ j : Fin 128, g0 j = f ⟨j.val, by have := j.isLt; omega⟩)
    (h1 : ∀ j : Fin 128, g1 j = f ⟨128 + j.val, by have := j.isLt; omega⟩)
    (h2 : ∀ j : Fin 128, g2 j = f ⟨256 + j.val, by have := j.isLt; omega⟩)
    (h3 : ∀ j : Fin 128, g3 j = f ⟨384 + j.val, by have := j.isLt; omega⟩) :
    max (max (max (max b (Finset.univ.fold max b g0)) (Finset.univ.fold max b g1)) (Finset.univ.fold max b g2))
        (Finset.univ.fold max b g3)
      = Finset.univ.fold max b f := by
  apply eq_of_forall_ge_iff
  intro c
  simp only [max_le_iff, Finset.fold_max_le, Finset.mem_univ, true_imp_iff]
  constructor
  · rintro ⟨⟨⟨⟨hb, -, a0⟩, -, a1⟩, -, a2⟩, -, a3⟩
    refine ⟨hb, fun k => ?_⟩
    have hk := k.isLt
    by_cases c0 : k.val < 128
    · have e := a0 ⟨k.val, c0⟩; rw [h0] at e; exact e
    by_cases c1 : k.val < 256
    · have e := a1 ⟨k.val - 128, by omega⟩; rw [h1] at e
      have hk' : (⟨128 + (k.val - 128), by omega⟩ : Fin 512) = k := Fin.ext (by show 128 + (k.val - 128) = k.val; omega)
      rw [hk'] at e; exact e
    by_cases c2 : k.val < 384
    · have e := a2 ⟨k.val - 256, by omega⟩; rw [h2] at e
      have hk' : (⟨256 + (k.val - 256), by omega⟩ : Fin 512) = k := Fin.ext (by show 256 + (k.val - 256) = k.val; omega)
      rw [hk'] at e; exact e
    · have e := a3 ⟨k.val - 384, by omega⟩; rw [h3] at e
      have hk' : (⟨384 + (k.val - 384), by omega⟩ : Fin 512) = k := Fin.ext (by show 384 + (k.val - 384) = k.val; omega)
      rw [hk'] at e; exact e
  · rintro ⟨hb, a⟩
    exact ⟨⟨⟨⟨hb, hb, fun j => by rw [h0]; exact a _⟩, hb, fun j => by rw [h1]; exact a _⟩, hb,
      fun j => by rw [h2]; exact a _⟩, hb, fun j => by rw [h3]; exact a _⟩

/-- The same for the running minimum. -/
theorem fold_min_four_chunks (b : α) (f : Fin 512 → α) (g0 g1 g2 g3 : Fin 128 → α)
    (h0 : ∀ j : Fin 128, g0 j = f ⟨j.val, by have := j.isLt; omega⟩)
    (h1 : ∀ j : Fin 128, g1 j = f ⟨128 + j.val, by have := j.isLt; omega⟩)
    (h2 : ∀ j : Fin 128, g2 j = f ⟨256 + j.val, by have := j.isLt; omega⟩)
    (h3 : ∀ j : Fin 128, g3 j = f ⟨384 + j.val, by have := j.isLt; omega⟩) :
    min (min (min (min b (Finset.univ.fold min b g0)) (Finset.univ.fold min b g1)) (Finset.univ.fold min b g2))
        (Finset.univ.fold min b g3)
      = Finset.univ.fold min b f := by
  apply eq_of_forall_le_iff
  intro c
  simp only [le_min_iff, Finset.le_fold_min, Finset.mem_univ, true_imp_iff]
  constructor
  · rintro ⟨⟨⟨⟨hb, -, a0⟩, -, a1⟩, -, a2⟩, -, a3⟩
    refine ⟨hb, fun k => ?_⟩
    have hk := k.isLt
    by_cases c0 : k.val < 128
    · have e := a0 ⟨k.val, c0⟩; rw [h0] at e; exact e
    by_cases c1 : k.val < 256
    · have e := a1 ⟨k.val - 128, by omega⟩; rw [h1] at e
      have hk' : (⟨128 + (k.val - 128), by omega⟩ : Fin 512) = k := Fin.ext (by show 128 + (k.val - 128) = k.val; omega)
      rw [hk'] at e; exact e
    by_cases c2 : k.val < 384
    · have e := a2 ⟨k.val - 256, by omega⟩; rw [h2] at e
      have hk' : (⟨256 + (k.val - 256), by omega⟩ : Fin 512) = k := Fin.ext (by show 256 + (k.val - 256) = k.val; omega)
      rw [hk'] at e; exact e
    · have e := a3 ⟨k.val - 384, by omega⟩; rw [h3] at e
      have hk' : (⟨384 + (k.val - 384), by omega⟩ : Fin 512) = k := Fin.ext (by show 384 + (k.val - 384) = k.val; omega)
      rw [hk'] at e; exact e
  · rintro ⟨hb, a⟩
    exact ⟨⟨⟨⟨hb, hb, fun j => by rw [h0]; exact a _⟩, hb, fun j => by rw [h1]; exact a _⟩, hb,
      fun j => by rw [h2]; exact a _⟩, hb, fun j => by rw [h3]; exact a _⟩

end ChunkFold
-- ==== Proof.Payload.lean ====
/-
  What one trip of the kernel's row loop stores, read at an entry.

  A trip works on 16 rows of the input block. It loads the rows' 512 columns as four [16, 128] pieces
  `u0 … u3` (columns 0–127, 128–255, 256–383, 384–511) and the weight matrix's columns as four [512, 128]
  pieces `w0 … w3`. For each piece it forms the [16, 512, 128] array of products u[a, j] · w[o, j], takes
  the maximum and the minimum over j, and carries a running maximum (from the f32 word 0xFF800000) and a
  running minimum (from 0x7F800000) across the four pieces. It stores running maximum + running minimum +
  the bias row. At entry (a, o) this is the maximum over all 512 columns k of row a times row o of the
  weights, plus the minimum, plus bias[o]: the running extremes over four chunks are the extremes over the
  whole row, because `max` and `min` are associative, commutative and idempotent.
-/
import proofs.«171334_j83047487635670_2_alg».proof.Proof.Gen.KernelIdeal.Skeleton
import proofs.«171334_j83047487635670_2_alg».proof.Proof.Spec
import proofs.«171334_j83047487635670_2_alg».proof.Proof.LibChunkFold
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx Cert.KernelIdeal Cert.KernelIdeal.Gen Cert.MaxPlusMin

/-! ## The layout steps at an index -/

/-- A [16, 128] array laid out as [16, 1, 128] reads at (a, z, j) the array at (a, j). -/
theorem cast_mid_unit (u : FVec Ideal S16x128 .f32) (h : S16x128.ShapeCasts S16x1x128) (a : Fin 16) (z : Fin 1)
    (j : Fin 128) : shapeCast S16x1x128 u h (ix3 a z j) = u (ix2 a j) :=
  shapeCast_apply u h _ _ (by
    have hz : z.val = 0 := by omega
    rw [Shape.rowMajor_val_two, Shape.rowMajor_val_three]
    show a.val * 128 + j.val = (a.val * 1 + z.val) * 128 + j.val
    rw [hz]; omega)

/-- A [512, 128] array laid out as [1, 512, 128] reads at (z, o, j) the array at (o, j). -/
theorem cast_lead_unit (w : FVec Ideal S512x128 .f32) (h : S512x128.ShapeCasts S1x512x128) (z : Fin 1) (o : Fin 512)
    (j : Fin 128) : shapeCast S1x512x128 w h (ix3 z o j) = w (ix2 o j) :=
  shapeCast_ab_1ab_apply w h z o j

/-- A [16, 1, 128] array repeated along its middle axis to [16, 512, 128] reads at (a, o, j) the array at (a, 0, j). -/
theorem repeat_mid (v : FVec Ideal S16x1x128 .f32) (h : S16x1x128.Broadcasts S16x512x128) (a : Fin 16) (o : Fin 512)
    (j : Fin 128) : broadcastTo S16x512x128 v h (ix3 a o j) = v (ix3 a (0 : Fin 1) j) := by
  refine broadcastTo_apply v h (ix3 a o j) (ix3 a (0 : Fin 1) j) fun ax => ?_
  match ax with
  | ⟨0, _⟩ => show a.val = if (16 : ℕ) = 1 then 0 else a.val; rw [if_neg (by decide)]
  | ⟨1, _⟩ => show (0 : ℕ) = if (1 : ℕ) = 1 then 0 else o.val; rw [if_pos rfl]
  | ⟨2, _⟩ => show j.val = if (128 : ℕ) = 1 then 0 else j.val; rw [if_neg (by decide)]

/-- A [1, 512, 128] array repeated along its leading axis to [16, 512, 128] reads at (a, o, j) the array at (0, o, j). -/
theorem repeat_lead (v : FVec Ideal S1x512x128 .f32) (h : S1x512x128.Broadcasts S16x512x128) (a : Fin 16) (o : Fin 512)
    (j : Fin 128) : broadcastTo S16x512x128 v h (ix3 a o j) = v (ix3 (0 : Fin 1) o j) := by
  refine broadcastTo_apply v h (ix3 a o j) (ix3 (0 : Fin 1) o j) fun ax => ?_
  match ax with
  | ⟨0, _⟩ => show (0 : ℕ) = if (1 : ℕ) = 1 then 0 else a.val; rw [if_pos rfl]
  | ⟨1, _⟩ => show o.val = if (512 : ℕ) = 1 then 0 else o.val; rw [if_neg (by decide)]
  | ⟨2, _⟩ => show j.val = if (128 : ℕ) = 1 then 0 else j.val; rw [if_neg (by decide)]

/-- The [16, 512, 128] array of products of one piece: at (a, o, j) it is u[a, j] · w[o, j]. -/
theorem products_apply (u : FVec Ideal S16x128 .f32) (w : FVec Ideal S512x128 .f32) (h0 : S16x128.ShapeCasts S16x128)
    (h1 : S16x128.ShapeCasts S16x1x128) (h2 : S16x1x128.Broadcasts S16x512x128) (h3 : S512x128.ShapeCasts S1x512x128)
    (h4 : S1x512x128.Broadcasts S16x512x128) (a : Fin 16) (o : Fin 512) (j : Fin 128) :
    mulf (broadcastTo S16x512x128 (shapeCast S16x1x128 (shapeCast S16x128 u h0) h1) h2)
        (broadcastTo S16x512x128 (shapeCast S1x512x128 w h3) h4) (ix3 a o j)
      = u (ix2 a j) * w (ix2 o j) := by
  rw [mulf_apply, repeat_mid, repeat_lead, cast_mid_unit, cast_lead_unit, shapeCast_self]

/-! ## The two reductions over the last axis at an index -/

/-- The maximum over the last axis of a [16, 512, 128] array, at (a, o): the fold of `max` over j of the array
    at (a, o, j), from the accumulator word's value. -/
theorem max_last_apply (src : FVec Ideal S16x512x128 .f32) (acc : BitVec 32) (h : S16x512x128.Reduces [2] S16x512)
    (hφ : FKind.Formats .f32) (hacc : acc = FKind.maximumf.neutral .f32 hφ) (a : Fin 16) (o : Fin 512) :
    multiReduction .maximumf [2] S16x512 src acc h hφ hacc (ix2 a o)
      = Finset.univ.fold max (FloatOps.ofBits (F := Ideal) .f32 acc) (fun j : Fin 128 => src (ix3 a o j)) := by
  refine (Ideal.multiReduction_maximumf_single src acc h hφ hacc (ix2 a o)).trans ?_
  refine congrArg (fun f => (Finset.univ : Finset (Fin 128)).fold max (FloatOps.ofBits (F := Ideal) .f32 acc) f) ?_
  funext j
  refine congrArg src (funext fun d => Fin.ext ?_)
  match d with
  | ⟨0, _⟩ => rfl
  | ⟨1, _⟩ => rfl
  | ⟨2, _⟩ => rfl

/-- The minimum over the last axis likewise (the set form of the reduction, re-indexed by the last coordinate). -/
theorem min_last_apply (src : FVec Ideal S16x512x128 .f32) (acc : BitVec 32) (h : S16x512x128.Reduces [2] S16x512)
    (hφ : FKind.Formats .f32) (hacc : acc = FKind.minimumf.neutral .f32 hφ) (a : Fin 16) (o : Fin 512) :
    multiReduction .minimumf [2] S16x512 src acc h hφ hacc (ix2 a o)
      = Finset.univ.fold min (FloatOps.ofBits (F := Ideal) .f32 acc) (fun j : Fin 128 => src (ix3 a o j)) := by
  refine (multiReduction_minimumf_eq_fold src acc h hφ hacc (ix2 a o)).trans ?_
  refine (h.fold_filter_drop_single _ _ src (ix2 a o)).trans ?_
  refine congrArg (fun f => (Finset.univ : Finset (Fin 128)).fold min (FloatOps.ofBits (F := Ideal) .f32 acc) f) ?_
  funext j
  refine congrArg src (funext fun d => Fin.ext ?_)
  match d with
  | ⟨0, _⟩ => rfl
  | ⟨1, _⟩ => rfl
  | ⟨2, _⟩ => rfl

/-! ## The stored value at an entry -/

/-- `max_last_apply` at the accumulator word and the evidence the program is printed with. -/
theorem max_last_printed (src : FVec Ideal S16x512x128 .f32) (h : S16x512x128.Reduces [2] S16x512)
    (hacc : (0xFF800000#32 : BitVec 32) = 0xFF800000#32) (a : Fin 16) (o : Fin 512) :
    multiReduction .maximumf [2] S16x512 src 0xFF800000#32 h (.inl rfl) hacc (ix2 a o)
      = Finset.univ.fold max maxStart (fun j : Fin 128 => src (ix3 a o j)) :=
  max_last_apply src 0xFF800000#32 h (.inl rfl) hacc a o

/-- `min_last_apply` at the accumulator word and the evidence the program is printed with. -/
theorem min_last_printed (src : FVec Ideal S16x512x128 .f32) (h : S16x512x128.Reduces [2] S16x512)
    (hacc : (0x7F800000#32 : BitVec 32) = 0x7F800000#32) (a : Fin 16) (o : Fin 512) :
    multiReduction .minimumf [2] S16x512 src 0x7F800000#32 h (.inl rfl) hacc (ix2 a o)
      = Finset.univ.fold min minStart (fun j : Fin 128 => src (ix3 a o j)) :=
  min_last_apply src 0x7F800000#32 h (.inl rfl) hacc a o

/-- The running maximum over the four pieces, at (a, o), spelt as the body computes it. -/
def runMax (u0 u1 u2 u3 : FVec Ideal S16x128 .f32) (w0 w1 w2 w3 : FVec Ideal S512x128 .f32) (a : Fin 16) (o : Fin 512) :
    Ideal .f32 :=
  max (max (max (max maxStart (Finset.univ.fold max maxStart (fun j : Fin 128 => u0 (ix2 a j) * w0 (ix2 o j))))
    (Finset.univ.fold max maxStart (fun j : Fin 128 => u1 (ix2 a j) * w1 (ix2 o j))))
    (Finset.univ.fold max maxStart (fun j : Fin 128 => u2 (ix2 a j) * w2 (ix2 o j))))
    (Finset.univ.fold max maxStart (fun j : Fin 128 => u3 (ix2 a j) * w3 (ix2 o j)))

/-- The running minimum over the four pieces, at (a, o), spelt as the body computes it. -/
def runMin (u0 u1 u2 u3 : FVec Ideal S16x128 .f32) (w0 w1 w2 w3 : FVec Ideal S512x128 .f32) (a : Fin 16) (o : Fin 512) :
    Ideal .f32 :=
  min (min (min (min minStart (Finset.univ.fold min minStart (fun j : Fin 128 => u0 (ix2 a j) * w0 (ix2 o j))))
    (Finset.univ.fold min minStart (fun j : Fin 128 => u1 (ix2 a j) * w1 (ix2 o j))))
    (Finset.univ.fold min minStart (fun j : Fin 128 => u2 (ix2 a j) * w2 (ix2 o j))))
    (Finset.univ.fold min minStart (fun j : Fin 128 => u3 (ix2 a j) * w3 (ix2 o j)))

/-- The first piece's products at (a, o, j). -/
theorem pay2_apply (u : FVec Ideal S16x128 .f32) (w : FVec Ideal S512x128 .f32) (a : Fin 16) (o : Fin 512) (j : Fin 128) :
    k0_pay2 (F := Ideal) u w (ix3 a o j) = u (ix2 a j) * w (ix2 o j) := by
  unfold k0_pay2
  exact products_apply u w _ _ _ _ _ a o j

/-- The second piece's products at (a, o, j). -/
theorem pay3_apply (u : FVec Ideal S16x128 .f32) (w : FVec Ideal S512x128 .f32) (a : Fin 16) (o : Fin 512) (j : Fin 128) :
    k0_pay3 (F := Ideal) u w (ix3 a o j) = u (ix2 a j) * w (ix2 o j) := by
  unfold k0_pay3
  exact products_apply u w _ _ _ _ _ a o j

/-- The running maximum after the first two pieces, at (a, o). -/
theorem pay4_apply (u0 u1 : FVec Ideal S16x128 .f32) (w0 w1 : FVec Ideal S512x128 .f32) (a : Fin 16) (o : Fin 512) :
    k0_pay4 (F := Ideal) u0 w0 u1 w1 (ix2 a o)
      = max (max maxStart (Finset.univ.fold max maxStart (fun j : Fin 128 => u0 (ix2 a j) * w0 (ix2 o j))))
          (Finset.univ.fold max maxStart (fun j : Fin 128 => u1 (ix2 a j) * w1 (ix2 o j))) := by
  unfold k0_pay4
  dsimp only
  refine (maximumf_apply _ _ _).trans (congrArg₂ max ((maximumf_apply _ _ _).trans (congrArg₂ max rfl ?_)) ?_)
  · refine (max_last_printed _ _ _ a o).trans ?_
    exact congrArg (fun f => (Finset.univ : Finset (Fin 128)).fold max maxStart f) (funext fun j => pay2_apply u0 w0 a o j)
  · refine (max_last_printed _ _ _ a o).trans ?_
    exact congrArg (fun f => (Finset.univ : Finset (Fin 128)).fold max maxStart f) (funext fun j => pay3_apply u1 w1 a o j)

/-- The running minimum after the first two pieces, at (a, o). -/
theorem pay5_apply (u0 u1 : FVec Ideal S16x128 .f32) (w0 w1 : FVec Ideal S512x128 .f32) (a : Fin 16) (o : Fin 512) :
    k0_pay5 (F := Ideal) u0 w0 u1 w1 (ix2 a o)
      = min (min minStart (Finset.univ.fold min minStart (fun j : Fin 128 => u0 (ix2 a j) * w0 (ix2 o j))))
          (Finset.univ.fold min minStart (fun j : Fin 128 => u1 (ix2 a j) * w1 (ix2 o j))) := by
  unfold k0_pay5
  dsimp only
  refine (minimumf_apply _ _ _).trans (congrArg₂ min ((minimumf_apply _ _ _).trans (congrArg₂ min rfl ?_)) ?_)
  · refine (min_last_printed _ _ _ a o).trans ?_
    exact congrArg (fun f => (Finset.univ : Finset (Fin 128)).fold min minStart f) (funext fun j => pay2_apply u0 w0 a o j)
  · refine (min_last_printed _ _ _ a o).trans ?_
    exact congrArg (fun f => (Finset.univ : Finset (Fin 128)).fold min minStart f) (funext fun j => pay3_apply u1 w1 a o j)

/-- The stored value over ANY carried running maximum `M` and minimum `m`, at (a, o): the last two pieces folded
    into them, the two added, the bias row added. -/
theorem pay1_apply (v0 : FVec Ideal S1x512 .f32) (M m : FVec Ideal S16x512 .f32) (u2 u3 : FVec Ideal S16x128 .f32)
    (w2 w3 : FVec Ideal S512x128 .f32) (a : Fin 16) (o : Fin 512) :
    k0_pay1 (F := Ideal) v0 M m u2 w2 u3 w3 (ix2 a o)
      = (max (max (M (ix2 a o)) (Finset.univ.fold max maxStart (fun j : Fin 128 => u2 (ix2 a j) * w2 (ix2 o j))))
            (Finset.univ.fold max maxStart (fun j : Fin 128 => u3 (ix2 a j) * w3 (ix2 o j)))
          + min (min (m (ix2 a o)) (Finset.univ.fold min minStart (fun j : Fin 128 => u2 (ix2 a j) * w2 (ix2 o j))))
              (Finset.univ.fold min minStart (fun j : Fin 128 => u3 (ix2 a j) * w3 (ix2 o j))))
        + v0 (ix2 (0 : Fin 1) o) := by
  unfold k0_pay1
  dsimp only
  refine (addf_apply _ _ _).trans (congrArg₂ (· + ·) ((addf_apply _ _ _).trans (congrArg₂ (· + ·) ?_ ?_)) ?_)
  · refine (maximumf_apply _ _ _).trans (congrArg₂ max ((maximumf_apply _ _ _).trans (congrArg₂ max rfl ?_)) ?_)
    · refine (max_last_printed _ _ _ a o).trans ?_
      exact congrArg (fun f => (Finset.univ : Finset (Fin 128)).fold max maxStart f)
        (funext fun j => products_apply u2 w2 _ _ _ _ _ a o j)
    · refine (max_last_printed _ _ _ a o).trans ?_
      exact congrArg (fun f => (Finset.univ : Finset (Fin 128)).fold max maxStart f)
        (funext fun j => products_apply u3 w3 _ _ _ _ _ a o j)
  · refine (minimumf_apply _ _ _).trans (congrArg₂ min ((minimumf_apply _ _ _).trans (congrArg₂ min rfl ?_)) ?_)
    · refine (min_last_printed _ _ _ a o).trans ?_
      exact congrArg (fun f => (Finset.univ : Finset (Fin 128)).fold min minStart f)
        (funext fun j => products_apply u2 w2 _ _ _ _ _ a o j)
    · refine (min_last_printed _ _ _ a o).trans ?_
      exact congrArg (fun f => (Finset.univ : Finset (Fin 128)).fold min minStart f)
        (funext fun j => products_apply u3 w3 _ _ _ _ _ a o j)
  · refine (broadcastTo_1b_ab_apply _ _ a o).trans ?_
    rw [shapeCast_self, shapeCast_self]

/-- What a trip stores, at entry (a, o): running maximum + running minimum + the bias row at o. -/
theorem stored_apply (v0 : FVec Ideal S1x512 .f32) (u0 u1 u2 u3 : FVec Ideal S16x128 .f32)
    (w0 w1 w2 w3 : FVec Ideal S512x128 .f32) (a : Fin 16) (o : Fin 512) :
    k0_pay1 (F := Ideal) v0 (k0_pay4 u0 w0 u1 w1) (k0_pay5 u0 w0 u1 w1) u2 w2 u3 w3 (ix2 a o)
      = (runMax u0 u1 u2 u3 w0 w1 w2 w3 a o + runMin u0 u1 u2 u3 w0 w1 w2 w3 a o) + v0 (ix2 (0 : Fin 1) o) := by
  rw [pay1_apply, pay4_apply, pay5_apply]
  unfold runMax runMin
  exact rfl

/-- The same against the whole row: if the four [16, 128] pieces are columns 0–127, …, 384–511 of a row function
    `X a` and the four [512, 128] pieces the same columns of `W o`, the stored entry is
    (max over the 512 columns + min over them) + bias. -/
theorem stored_eq_extremes (v0 : FVec Ideal S1x512 .f32) (u0 u1 u2 u3 : FVec Ideal S16x128 .f32)
    (w0 w1 w2 w3 : FVec Ideal S512x128 .f32) (a : Fin 16) (o : Fin 512) (f : Fin 512 → Ideal .f32)
    (h0 : ∀ j : Fin 128, u0 (ix2 a j) * w0 (ix2 o j) = f ⟨j.val, by have := j.isLt; omega⟩)
    (h1 : ∀ j : Fin 128, u1 (ix2 a j) * w1 (ix2 o j) = f ⟨128 + j.val, by have := j.isLt; omega⟩)
    (h2 : ∀ j : Fin 128, u2 (ix2 a j) * w2 (ix2 o j) = f ⟨256 + j.val, by have := j.isLt; omega⟩)
    (h3 : ∀ j : Fin 128, u3 (ix2 a j) * w3 (ix2 o j) = f ⟨384 + j.val, by have := j.isLt; omega⟩) :
    k0_pay1 (F := Ideal) v0 (k0_pay4 u0 w0 u1 w1) (k0_pay5 u0 w0 u1 w1) u2 w2 u3 w3 (ix2 a o)
      = (Finset.univ.fold max maxStart f + Finset.univ.fold min minStart f) + v0 (ix2 (0 : Fin 1) o) := by
  rw [stored_apply]
  unfold runMax runMin
  rw [ChunkFold.fold_max_four_chunks maxStart f _ _ _ _ h0 h1 h2 h3,
    ChunkFold.fold_min_four_chunks minStart f _ _ _ _ h0 h1 h2 h3]

end Cert.KernelIdeal.Payload

end
-- ==== Proof.BlockSpec.lean ====
/-
  The specification cut down to one block of 256 rows, and its relation to the whole.

  The kernel works on the [1024, 512] array 256 rows at a time. On one block `B` (256 rows of 512), with the
  whole weight matrix `W` and the bias as a [1, 512] row, the entry (r, o) is again (maximum over k of
  B[r,k] · W[o,k] + minimum over k of the same products) + bias[0,o]. If `B` is rows 256·t … 256·t + 255 of
  `X` and the bias row is the bias vector laid out as one row, then entry (r, o) of the block is entry
  (256·t + r, o) of the whole array: the products are the same 512 numbers.
-/
import proofs.«171334_j83047487635670_2_alg».proof.Proof.Spec

noncomputable section

namespace Cert.MaxPlusMin

open Idealize.ShloMosaic Idealize.ShloMosaic.ValueIdx

/-- The 512 products of row `r` of the block with row `o` of `W`. -/
def blockProds (B : FVec Ideal ⟨2, ![256, 512]⟩ .f32) (W : FVec Ideal ⟨2, ![512, 512]⟩ .f32) (r : Fin 256) (o : Fin 512) :
    Fin 512 → Ideal .f32 :=
  fun k => B (ix2 r k) * W (ix2 o k)

/-- Entry (r, o) of the block's result. -/
def blockEntry (B : FVec Ideal ⟨2, ![256, 512]⟩ .f32) (W : FVec Ideal ⟨2, ![512, 512]⟩ .f32)
    (brow : FVec Ideal ⟨2, ![1, 512]⟩ .f32) (r : Fin 256) (o : Fin 512) : Ideal .f32 :=
  (Finset.univ.fold max maxStart (blockProds B W r o) + Finset.univ.fold min minStart (blockProds B W r o))
    + brow (ix2 (0 : Fin 1) o)

/-- The block's result as a [256, 512] array. -/
def blockFun (B : FVec Ideal ⟨2, ![256, 512]⟩ .f32) (W : FVec Ideal ⟨2, ![512, 512]⟩ .f32)
    (brow : FVec Ideal ⟨2, ![1, 512]⟩ .f32) : FVec Ideal ⟨2, ![256, 512]⟩ .f32 :=
  fun y => blockEntry B W brow (y 0) (y 1)

theorem blockFun_apply (B : FVec Ideal ⟨2, ![256, 512]⟩ .f32) (W : FVec Ideal ⟨2, ![512, 512]⟩ .f32)
    (brow : FVec Ideal ⟨2, ![1, 512]⟩ .f32) (r : Fin 256) (o : Fin 512) :
    blockFun B W brow (ix2 r o) = blockEntry B W brow r o := rfl

/-- A block's entry is the whole array's entry at the block's row: if `B` at (r, k) is `X` at (p, k) for every
    column k, and the bias row at (0, o) is the bias vector at o, then `blockEntry B W brow r o = entry X W bias p o`. -/
theorem blockEntry_eq_entry (B : FVec Ideal ⟨2, ![256, 512]⟩ .f32) (X : FVec Ideal ⟨2, ![1024, 512]⟩ .f32)
    (W : FVec Ideal ⟨2, ![512, 512]⟩ .f32) (brow : FVec Ideal ⟨2, ![1, 512]⟩ .f32) (bias : FVec Ideal ⟨1, ![512]⟩ .f32)
    (r : Fin 256) (p : Fin 1024) (o : Fin 512) (hB : ∀ k : Fin 512, B (ix2 r k) = X (ix2 p k))
    (hb : brow (ix2 (0 : Fin 1) o) = bias (ix1 o)) : blockEntry B W brow r o = entry X W bias p o := by
  have hp : blockProds B W r o = prods X W p o := funext fun k => by
    show B (ix2 r k) * W (ix2 o k) = X (ix2 p k) * W (ix2 o k)
    rw [hB k]
  unfold blockEntry entry
  rw [hp, hb]

end Cert.MaxPlusMin

end
-- ==== Proof.Block.lean ====
/-
  What the kernel's body leaves in its output block at one grid point.

  The body walks the 256 rows of its input block 16 at a time. Trip k loads rows 16k … 16k + 15 in four pieces
  of 128 columns, the weight matrix's columns likewise, and stores, into rows 16k … 16k + 15 of the output
  block, running maximum + running minimum + bias. Read at row 16k + a and column o, the stored number is the
  block's entry (16k + a, o): the four pieces' products are columns 0 … 511 of row 16k + a against row o of
  the weights, so the running extremes are the extremes over the whole row. Every store is therefore a block
  of ONE function of the output block's index, and since the sixteen stores tile the block, the block ends
  holding that function.
-/
import proofs.«171334_j83047487635670_2_alg».proof.Proof.Gen.KernelIdeal.Frame
import proofs.«171334_j83047487635670_2_alg».proof.Proof.Payload
import proofs.«171334_j83047487635670_2_alg».proof.Proof.BlockSpec
import Idealize.ShloMosaic.Lib.Pipeline.Value

set_option maxRecDepth 16384

noncomputable section

namespace Cert.KernelIdeal.Block

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Payload Cert.MaxPlusMin

/-- Trip k's stored value at (a, o) is the block's entry at row 16k + a, column o: the four loaded pieces of the
    input rows and of the weights are the columns 128c … 128c + 127 (c = 0, 1, 2, 3) of row 16k + a and of row o. -/
theorem piece_entry (R1 : FVec Ideal S256x512 .f32) (R2 : FVec Ideal S512x512 .f32) (v0 : FVec Ideal S1x512 .f32)
    (k : Fin k0_t1_loop.trips)
    (i0 : ∀ d, (k0_off1 k 0#32) d + (![16, 128] : Fin 2 → ℕ) d ≤ S256x512.size d)
    (i1 : ∀ d, (k0_off1 k 1#32) d + (![16, 128] : Fin 2 → ℕ) d ≤ S256x512.size d)
    (i2 : ∀ d, (k0_off1 k 2#32) d + (![16, 128] : Fin 2 → ℕ) d ≤ S256x512.size d)
    (i3 : ∀ d, (k0_off1 k 3#32) d + (![16, 128] : Fin 2 → ℕ) d ≤ S256x512.size d)
    (j0 : ∀ d, (![0, 0] : Fin 2 → ℕ) d + (![512, 128] : Fin 2 → ℕ) d ≤ S512x512.size d)
    (j1 : ∀ d, (![0, 128] : Fin 2 → ℕ) d + (![512, 128] : Fin 2 → ℕ) d ≤ S512x512.size d)
    (j2 : ∀ d, (![0, 256] : Fin 2 → ℕ) d + (![512, 128] : Fin 2 → ℕ) d ≤ S512x512.size d)
    (j3 : ∀ d, (![0, 384] : Fin 2 → ℕ) d + (![512, 128] : Fin 2 → ℕ) d ≤ S512x512.size d)
    (io : ∀ d, (k0_off3 k) d + (![16, 512] : Fin 2 → ℕ) d ≤ S256x512.size d) (a : Fin 16) (o : Fin 512) :
    k0_pay1 (F := Ideal) v0
        (k0_pay4 (View.ld R1 (Rect.unit (s := S256x512) (k0_off1 k 0#32) ![16, 128] i0)) (View.ld R2 (Rect.unit (s := S512x512) ![0, 0] ![512, 128] j0))
          (View.ld R1 (Rect.unit (s := S256x512) (k0_off1 k 1#32) ![16, 128] i1)) (View.ld R2 (Rect.unit (s := S512x512) ![0, 128] ![512, 128] j1)))
        (k0_pay5 (View.ld R1 (Rect.unit (s := S256x512) (k0_off1 k 0#32) ![16, 128] i0)) (View.ld R2 (Rect.unit (s := S512x512) ![0, 0] ![512, 128] j0))
          (View.ld R1 (Rect.unit (s := S256x512) (k0_off1 k 1#32) ![16, 128] i1)) (View.ld R2 (Rect.unit (s := S512x512) ![0, 128] ![512, 128] j1)))
        (View.ld R1 (Rect.unit (s := S256x512) (k0_off1 k 2#32) ![16, 128] i2)) (View.ld R2 (Rect.unit (s := S512x512) ![0, 256] ![512, 128] j2))
        (View.ld R1 (Rect.unit (s := S256x512) (k0_off1 k 3#32) ![16, 128] i3)) (View.ld R2 (Rect.unit (s := S512x512) ![0, 384] ![512, 128] j3)) (ix2 a o)
      = blockFun R1 R2 v0 ((Rect.unit (s := S256x512) (k0_off3 k) ![16, 512] io).emb (ix2 a o)) := by
  have hk : k.val < 16 := Nat.lt_of_lt_of_le k.isLt k0_t1_abs.2.1
  have e0 : k0_off1 k 0#32 = ![16 * k.val, 128 * 0] := k0_off1_eq k ⟨0, by decide⟩
  have e1 : k0_off1 k 1#32 = ![16 * k.val, 128 * 1] := k0_off1_eq k ⟨1, by decide⟩
  have e2 : k0_off1 k 2#32 = ![16 * k.val, 128 * 2] := k0_off1_eq k ⟨2, by decide⟩
  have e3 : k0_off1 k 3#32 = ![16 * k.val, 128 * 3] := k0_off1_eq k ⟨3, by decide⟩
  have eo : k0_off3 k = ![16 * k.val, 0] := k0_off3_eq k
  have hy : (Rect.unit (s := S256x512) (k0_off3 k) ![16, 512] io).emb (ix2 a o)
      = ix2 (⟨16 * k.val + a.val, by have := a.isLt; omega⟩ : Fin 256) o := by
    funext d
    apply Fin.ext
    match d with
    | ⟨0, _⟩ =>
      show (k0_off3 k) 0 + 1 * a.val = 16 * k.val + a.val
      rw [eo]; simp only [Matrix.cons_val_zero]; omega
    | ⟨1, _⟩ =>
      show (k0_off3 k) 1 + 1 * o.val = o.val
      rw [eo]; simp only [Matrix.cons_val_one, Matrix.cons_val_zero, Matrix.head_cons]; omega
  rw [hy, blockFun_apply]
  unfold blockEntry
  refine stored_eq_extremes v0 _ _ _ _ _ _ _ _ a o
    (blockProds R1 R2 (⟨16 * k.val + a.val, by have := a.isLt; omega⟩ : Fin 256) o) ?_ ?_ ?_ ?_
  · intro j
    refine congrArg₂ (· * ·) (congrArg R1 (funext fun d => Fin.ext ?_)) (congrArg R2 (funext fun d => Fin.ext ?_))
    · match d with
      | ⟨0, _⟩ => show (k0_off1 k 0#32) 0 + 1 * a.val = 16 * k.val + a.val; rw [e0]; simp only [Matrix.cons_val_zero]; omega
      | ⟨1, _⟩ =>
        show (k0_off1 k 0#32) 1 + 1 * j.val = j.val
        rw [e0]; simp only [Matrix.cons_val_one, Matrix.cons_val_zero, Matrix.head_cons]; omega
    · match d with
      | ⟨0, _⟩ => show (0 : ℕ) + 1 * o.val = o.val; omega
      | ⟨1, _⟩ => show (0 : ℕ) + 1 * j.val = j.val; omega
  · intro j
    refine congrArg₂ (· * ·) (congrArg R1 (funext fun d => Fin.ext ?_)) (congrArg R2 (funext fun d => Fin.ext ?_))
    · match d with
      | ⟨0, _⟩ => show (k0_off1 k 1#32) 0 + 1 * a.val = 16 * k.val + a.val; rw [e1]; simp only [Matrix.cons_val_zero]; omega
      | ⟨1, _⟩ =>
        show (k0_off1 k 1#32) 1 + 1 * j.val = 128 + j.val
        rw [e1]; simp only [Matrix.cons_val_one, Matrix.cons_val_zero, Matrix.head_cons]; omega
    · match d with
      | ⟨0, _⟩ => show (0 : ℕ) + 1 * o.val = o.val; omega
      | ⟨1, _⟩ => show (128 : ℕ) + 1 * j.val = 128 + j.val; omega
  · intro j
    refine congrArg₂ (· * ·) (congrArg R1 (funext fun d => Fin.ext ?_)) (congrArg R2 (funext fun d => Fin.ext ?_))
    · match d with
      | ⟨0, _⟩ => show (k0_off1 k 2#32) 0 + 1 * a.val = 16 * k.val + a.val; rw [e2]; simp only [Matrix.cons_val_zero]; omega
      | ⟨1, _⟩ =>
        show (k0_off1 k 2#32) 1 + 1 * j.val = 256 + j.val
        rw [e2]; simp only [Matrix.cons_val_one, Matrix.cons_val_zero, Matrix.head_cons]; omega
    · match d with
      | ⟨0, _⟩ => show (0 : ℕ) + 1 * o.val = o.val; omega
      | ⟨1, _⟩ => show (256 : ℕ) + 1 * j.val = 256 + j.val; omega
  · intro j
    refine congrArg₂ (· * ·) (congrArg R1 (funext fun d => Fin.ext ?_)) (congrArg R2 (funext fun d => Fin.ext ?_))
    · match d with
      | ⟨0, _⟩ => show (k0_off1 k 3#32) 0 + 1 * a.val = 16 * k.val + a.val; rw [e3]; simp only [Matrix.cons_val_zero]; omega
      | ⟨1, _⟩ =>
        show (k0_off1 k 3#32) 1 + 1 * j.val = 384 + j.val
        rw [e3]; simp only [Matrix.cons_val_one, Matrix.cons_val_zero, Matrix.head_cons]; omega
    · match d with
      | ⟨0, _⟩ => show (0 : ℕ) + 1 * o.val = o.val; omega
      | ⟨1, _⟩ => show (384 : ℕ) + 1 * j.val = 384 + j.val; omega

/-- Every piece trip k stores (there is one, at rows 16k … 16k + 15) is a block of the block function of the
    contents the trip reads: `piece_entry` at each of its entries. The trip's stored list is opened here, once. -/
theorem trip_pieces (𝒱 : Variants) (c : Dev nD) (bd : Option 𝒱.V) (i : grid0.Coords)
    (arg1 : Memref sig .tc .vmem S256x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S256x512 .f32) (harg4 : arg4.IsWhole)
    (v0 : Vec Ideal S1x512 .f32) (X1 : BufTy.Contents (Elt Ideal) arg1.view.ty) (X2 : BufTy.Contents (Elt Ideal) arg2.view.ty)
    (k : Fin k0_t1_loop.trips) :
    ∀ p ∈ tripL_k0_t1 (F := Ideal) 𝒱 c bd i arg1 harg1 arg2 harg2 arg3 harg3 arg4 harg4 v0 X1 X2 k,
      ∀ x : p.1.shape.Idx,
        p.2 x = blockFun (arg1.view.read (Elt Ideal) X1) (arg2.view.read (Elt Ideal) X2) v0 (p.1.emb x) := by
  unfold tripL_k0_t1 trip_k0_t1
  dsimp only
  sl_unfold_run_names
  simp only [View.readAt_eq_ld]
  intro p hp
  rw [List.mem_singleton] at hp
  subst hp
  dsimp only
  intro x
  obtain ⟨a, o, rfl⟩ : ∃ (a : Fin 16) (o : Fin 512), x = ix2 a o := ⟨x 0, x 1, eq_ix2 x⟩
  exact piece_entry _ _ _ k _ _ _ _ _ _ _ _ _ a o

/-- So is every piece of the trips before any n: by induction, the list before trip n + 1 being trip n's piece in
    front of the list before trip n. The block function is stated over `B`, `W`, `brow` with the three equations
    that say they are what the loop reads, so that the statement can be used where the contents are spelt otherwise. -/
theorem pieces_before (𝒱 : Variants) (c : Dev nD) (bd : Option 𝒱.V) (i : grid0.Coords)
    (arg1 : Memref sig .tc .vmem S256x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S256x512 .f32) (harg4 : arg4.IsWhole)
    (v0 : Vec Ideal S1x512 .f32) (X1 : BufTy.Contents (Elt Ideal) arg1.view.ty) (X2 : BufTy.Contents (Elt Ideal) arg2.view.ty)
    (B : Vec Ideal S256x512 .f32) (W : Vec Ideal S512x512 .f32) (brow : Vec Ideal S1x512 .f32)
    (h1 : arg1.view.read (Elt Ideal) X1 = B) (h2 : arg2.view.read (Elt Ideal) X2 = W) (h3 : v0 = brow) (n : ℕ) :
    ∀ p ∈ pb_k0_t1 (F := Ideal) 𝒱 c bd i arg1 harg1 arg2 harg2 arg3 harg3 arg4 harg4 v0 X1 X2 n,
      ∀ x : p.1.shape.Idx, p.2 x = blockFun B W brow (p.1.emb x) := by
  subst h1 h2 h3
  induction n with
  | zero =>
    intro p hp
    rw [pb_k0_t1.eq_1] at hp
    exact absurd hp List.not_mem_nil
  | succ n ih =>
    intro p hp
    rw [pb_k0_t1.eq_2] at hp
    unfold pb_k0_t1Step at hp
    split at hp
    · rename_i hn
      rcases List.mem_append.mp hp with hp1 | hp2
      · exact trip_pieces 𝒱 c bd i arg1 harg1 arg2 harg2 arg3 harg3 arg4 harg4 v0 X1 X2 ⟨n, hn⟩ p hp1
      · exact ih p hp2
    · exact ih p hp

/-- Every piece the whole body stores is a block of the block function of the three input blocks. The body's run is
    opened here, once: its stored list is the list before trip 16, over the inputs' contents and the bias row as loaded. -/
theorem run_pieces (c : Dev nD) (i : grid0.Coords)
    (arg1 : Memref sig .tc .vmem S256x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S256x512 .f32) (harg4 : arg4.IsWhole)
    (x0 : Vec Ideal S256x512 .f32) (x1 : Vec Ideal S512x512 .f32) (x2 : Vec Ideal S1x512 .f32) :
    ∀ p ∈ (kernelRun0_A (F := Ideal) c i arg1 harg1 arg2 harg2 arg3 harg3 arg4 harg4 x0 x1 x2).1,
      ∀ x : p.1.shape.Idx, p.2 x = blockFun x0 x1 x2 (p.1.emb x) := by
  unfold kernelRun0_A
  dsimp only
  refine pieces_before _ c _ i arg1 harg1 arg2 harg2 arg3 harg3 arg4 harg4 _ _ _ x0 x1 x2
    (harg1.read_unread x0) (harg2.read_unread x1) ?_ _
  rw [View.readAt_eq_ld, harg3.read_unread]
  exact View.ld_unit_zero (S := S1x512) (by funext d; match d with | ⟨0, _⟩ => rfl | ⟨1, _⟩ => rfl) _ x2

/-- THE BLOCK: at any grid point and on any staging buffers, the body leaves in the output block the block function
    of the three input blocks — its sixteen stores are blocks of that one function and tile the block. -/
theorem block_eq (c : Dev nD) (i : grid0.Coords)
    (arg1 : Memref sig .tc .vmem S256x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S256x512 .f32) (harg4 : arg4.IsWhole)
    (x0 : Vec Ideal S256x512 .f32) (x1 : Vec Ideal S512x512 .f32) (x2 : Vec Ideal S1x512 .f32) :
    out0_A_3 (F := Ideal) c i arg1 harg1 arg2 harg2 arg3 harg3 arg4 harg4 x0 x1 x2 = blockFun x0 x1 x2 := by
  unfold out0_A_3
  funext y
  exact View.read_writes_apply_of_pieces VO0_3 VO0_3.junk (blockFun x0 x1 x2) _
    (run_pieces c i arg1 harg1 arg2 harg2 arg3 harg3 arg4 harg4 x0 x1 x2) y
    (cover0_A_3 c i arg1 harg1 arg2 harg2 arg3 harg3 arg4 harg4 x0 x1 x2 y)

end Cert.KernelIdeal.Block

end
-- ==== Proof.KernelValue.lean ====
/-
  The kernel's whole result from what one grid point leaves in its output block.

  The kernel first merges the two leading axes of its [2, 512, 512] input into a [1024, 512] array X and lays the
  bias vector out as one [1, 512] row. It then visits four grid points. Point t reads rows 256·t … 256·t + 255 of
  X, the whole weight matrix W and the whole bias row, and writes rows 256·t … 256·t + 255 of a [1024, 512]
  result array. Last, the result array's leading axis is split back into [2, 512].

  Suppose the body of every point leaves in its output block the block's result: entry (r, o) is
  (max over k of B[r,k] · W[o,k] + min over k of the same products) + bias row[0,o], B the block of rows read.
  Entry (r, o) of the block of point t is then the specification's entry (256·t + r, o) of the whole array: the
  block's row r is row 256·t + r of X, so the 512 products are the same numbers, and the bias row at (0, o) is
  the bias vector at o. So what point t writes back is block t of the specification's [1024, 512] array of
  entries. The four blocks fill the result array (row p lies in the block of point p / 256) and every point writes
  its block back, so after the last point the result array IS that array of entries; split back into
  [2, 512, 512] it is the specification's result. The merge and the split of the leading axes are never opened:
  they are the same operations in the specification.
-/
import proofs.«171334_j83047487635670_2_alg».proof.Proof.Gen.KernelIdeal.Frame
import proofs.«171334_j83047487635670_2_alg».proof.Proof.BlockSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem Cert.KernelIdeal Cert.KernelIdeal.Gen
open Idealize.ShloMosaic.StableHlo
open Idealize.ShloMosaic.Pipeline (Dat)

/-- What one grid point's body leaves in the output block, as a function of the three input blocks. -/
def BlockIs : Prop :=
  ∀ (c : Dev nD) (i : grid0.Coords) (arg1 : Memref sig .tc .vmem S256x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S256x512 .f32) (harg4 : arg4.IsWhole)
    (x0 : Vec Ideal S256x512 .f32) (x1 : Vec Ideal S512x512 .f32) (x2 : Vec Ideal S1x512 .f32),
    out0_A_3 (F := Ideal) c i arg1 harg1 arg2 harg2 arg3 harg3 arg4 harg4 x0 x1 x2 = Cert.MaxPlusMin.blockFun x0 x1 x2

section Arrays

variable (m : (ℓ : Loc nD τ sig) → Buf (Elt Ideal) ℓ)

/-! ## The arrays the region finds -/

/-- When the region is entered the [1024, 512] array it reads is the input with its two leading axes merged. -/
theorem V_main_v0 (c : Dev nD) :
    V m c main_v0 = shapeCast S1024x512 (m ((c : Thread nD τ).loc main_arg0)) shapeCasts_S2x512x512_S1024x512 := by
  show StableHlo.after hostOps0 (fun b => m (c, b)) (Proc.devRef .tc main_v0) = _
  after_results
  rfl

/-- When the region is entered the [1, 512] row it reads is the bias vector laid out as one row. -/
theorem V_main_v1 (c : Dev nD) :
    V m c main_v1 = shapeCast S1x512 (m ((c : Thread nD τ).loc main_arg2)) shapeCasts_S512_S1x512 := by
  show StableHlo.after hostOps0 (fun b => m (c, b)) (Proc.devRef .tc main_v1) = _
  after_results
  rfl

/-! ## The blocks the body reads and writes -/

/-- The four index maps over the grid: point t reads rows 256·t … 256·t + 255 of the [1024, 512] array and
    writes the same rows of the result; the weight matrix and the bias row are read whole at every point. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (r, k) of the block of rows point t reads is entry (256·t + r, k) of the [1024, 512] array. -/
theorem rows_block_apply (c : Dev nD) (t : Fin cfg0.N) (x : S256x512.Idx) (i : S1024x512.Idx)
    (h0 : (i 0).val = 256 * t.val + (x 0).val) (h1 : (i 1).val = (x 1).val) :
    (iblk m c 0 t : Vec Ideal S256x512 .f32) x = (V m c main_v0 : S1024x512.Idx → Ideal .f32) i := by
  obtain ⟨e0, e1, -⟩ := index_facts t
  unfold iblk
  rw [View.read_apply]
  show V m c main_v0 (((cfg0.win 0).blk t).view.emb x) = V m c main_v0 i
  refine congrArg (V m c main_v0) (funext fun a => Fin.ext ?_)
  match a with
  | ⟨0, _⟩ => show win0_0.index t (0 : Fin 2) * 256 + 1 * (x 0).val = (i 0).val; rw [e0, h0]; omega
  | ⟨1, _⟩ => show win0_0.index t (1 : Fin 2) * 512 + 1 * (x 1).val = (i 1).val; rw [e1, h1]; omega

/-- The block of the weight matrix a point reads is the whole matrix. -/
theorem weights_block_apply (c : Dev nD) (t : Fin cfg0.N) (x : S512x512.Idx) :
    (iblk m c 1 t : Vec Ideal S512x512 .f32) x = (V m c main_arg1 : S512x512.Idx → Ideal .f32) x := by
  obtain ⟨-, -, e0, e1, -⟩ := index_facts t
  unfold iblk
  rw [View.read_apply]
  show V m c main_arg1 (((cfg0.win 1).blk t).view.emb x) = V m c main_arg1 x
  refine congrArg (V m c main_arg1) (funext fun a => Fin.ext ?_)
  match a with
  | ⟨0, _⟩ => show win0_1.index t (0 : Fin 2) * 512 + 1 * (x 0).val = (x 0).val; rw [e0]; omega
  | ⟨1, _⟩ => show win0_1.index t (1 : Fin 2) * 512 + 1 * (x 1).val = (x 1).val; rw [e1]; omega

/-- The block of the bias row a point reads is the whole row. -/
theorem bias_block_apply (c : Dev nD) (t : Fin cfg0.N) (x : S1x512.Idx) :
    (iblk m c 2 t : Vec Ideal S1x512 .f32) x = (V m c main_v1 : S1x512.Idx → Ideal .f32) x := by
  obtain ⟨-, -, -, -, e0, e1, -⟩ := index_facts t
  unfold iblk
  rw [View.read_apply]
  show V m c main_v1 (((cfg0.win 2).blk t).view.emb x) = V m c main_v1 x
  refine congrArg (V m c main_v1) (funext fun a => Fin.ext ?_)
  match a with
  | ⟨0, _⟩ => show win0_2.index t (0 : Fin 2) * 1 + 1 * (x 0).val = (x 0).val; rw [e0]; omega
  | ⟨1, _⟩ => show win0_2.index t (1 : Fin 2) * 512 + 1 * (x 1).val = (x 1).val; rw [e1]; omega

/-! ## What a point writes back -/

/-- One block's result is the whole array's at the block's rows: if the block B is rows 256·t … 256·t + 255 of
    X, the matrix the point reads is W and the row it reads is the bias vector laid out as one row, then entry
    y of the block's result is the whole array's entry at row 256·t + y₀ and column y₁. -/
theorem block_result_apply (X : FVec Ideal S1024x512 .f32) (W : FVec Ideal S512x512 .f32) (bias : FVec Ideal S512 .f32)
    (B : FVec Ideal S256x512 .f32) (W' : FVec Ideal S512x512 .f32) (brow : FVec Ideal S1x512 .f32) (tv : Nat)
    (hB : ∀ (x : S256x512.Idx) (i : S1024x512.Idx), (i 0).val = 256 * tv + (x 0).val → (i 1).val = (x 1).val → B x = X i)
    (hW : ∀ x : S512x512.Idx, W' x = W x)
    (hb : ∀ o : Fin 512, brow (ix2 (0 : Fin 1) o) = bias (ix1 o))
    (y : S256x512.Idx) (i : S1024x512.Idx) (h0 : (i 0).val = 256 * tv + (y 0).val) (h1 : (i 1).val = (y 1).val) :
    Cert.MaxPlusMin.blockFun B W' brow y = Cert.MaxPlusMin.rows X W bias i := by
  obtain rfl : W' = W := funext hW
  obtain ⟨r, o, rfl⟩ : ∃ (r : Fin 256) (o : Fin 512), y = ix2 r o := ⟨y 0, y 1, eq_ix2 y⟩
  obtain ⟨p, o', rfl⟩ : ∃ (p : Fin 1024) (o' : Fin 512), i = ix2 p o' := ⟨i 0, i 1, eq_ix2 i⟩
  obtain rfl : o' = o := Fin.ext h1
  rw [Cert.MaxPlusMin.blockFun_apply, Cert.MaxPlusMin.rows_apply]
  exact Cert.MaxPlusMin.blockEntry_eq_entry B X W' brow bias r p o' (fun k => hB (ix2 r k) (ix2 p k) h0 rfl) (hb o')

/-- The [1024, 512] array of the specification's entries, of the arrays the region finds and the bias vector. -/
abbrev wholeRows (c : Dev nD) : Buf (Elt Ideal) ((c : Thread nD τ).loc main_v2) :=
  Cert.MaxPlusMin.rows (V m c main_v0) (V m c main_arg1) (m ((c : Thread nD τ).loc main_arg2))

/-- What point t writes back is block t of that array. -/
theorem flushed_eq (hblock : BlockIs) (c : Dev nD) (t : Fin cfg0.N) :
    (dats m 0 c).flushed 3 t = ((cfg0.win 3).blk t).view.read (Elt Ideal) (wholeRows m c) := by
  obtain ⟨-, -, -, -, -, -, e0, e1⟩ := index_facts t
  show (cfg0.win 3).cut (grid0.coords t) ((dats m 0 c).after 3 t) = _
  rw [after0_3]
  unfold outsAt0
  rw [hblock]
  refine funext fun (y : S256x512.Idx) => ?_
  rw [View.read_apply]
  show Cert.MaxPlusMin.blockFun (iblk m c 0 t) (iblk m c 1 t) (iblk m c 2 t) ((cfg0.win 3).xinj (grid0.coords t) y)
    = wholeRows m c (((cfg0.win 3).blk t).view.emb y)
  refine block_result_apply (V m c main_v0) (V m c main_arg1) (m ((c : Thread nD τ).loc main_arg2))
    (iblk m c 0 t) (iblk m c 1 t) (iblk m c 2 t) t.val (rows_block_apply m c t) (weights_block_apply m c t) ?_ _ _ ?_ ?_
  · intro o
    rw [bias_block_apply, V_main_v1]
    exact shapeCast_a_1a_apply _ _ 0 o
  · show win0_3.index t (0 : Fin 2) * 256 + 1 * (y 0).val = 256 * t.val + (y 0).val
    rw [e0]; omega
  · show win0_3.index t (1 : Fin 2) * 512 + 1 * (y 1).val = (y 1).val
    rw [e1]; omega

/-! ## The result array after the last point -/

/-- An index of the result array is in point t's block iff, on each axis, its coordinate is in the block's range. -/
theorem mem_block (t : Fin cfg0.N) (i : S1024x512.Idx) :
    i ∈ ((cfg0.win 3).blk t).view.set
      ↔ ∀ a : Fin 2, win0_3.index t a * S256x512.size a ≤ (i a).val ∧ (i a).val < win0_3.index t a * S256x512.size a + S256x512.size a := by
  show i ∈ ((View.whole main_v2).slice (win0_3.rect t)).set ↔ _
  rw [View.set_slice_whole, Rect.mem_set_unit]
  exact Iff.rfl

/-- The four blocks of 256 rows fill the result array: row p is in the block of point p / 256, and every point
    writes its block back. -/
theorem covered (i : S1024x512.Idx) :
    ∃ t : Fin cfg0.N, (cfg0.win 3).flush t = true ∧ i ∈ ((cfg0.win 3).blk t).view.set := by
  have hN : cfg0.N = 4 := N_0
  have h0 : (i 0).val < 1024 := (i 0).isLt
  have h1 : (i 1).val < 512 := (i 1).isLt
  obtain ⟨t, ht⟩ : ∃ t : Fin cfg0.N, t.val = (i 0).val / 256 := ⟨⟨(i 0).val / 256, by rw [hN]; omega⟩, rfl⟩
  obtain ⟨-, -, -, -, -, -, e0, e1⟩ := index_facts t
  refine ⟨t, flush0_3 t, ?_⟩
  rw [mem_block]
  intro a
  match a with
  | ⟨0, _⟩ =>
    show win0_3.index t (0 : Fin 2) * 256 ≤ (i 0).val ∧ (i 0).val < win0_3.index t (0 : Fin 2) * 256 + 256
    rw [e0, ht]; omega
  | ⟨1, _⟩ =>
    show win0_3.index t (1 : Fin 2) * 512 ≤ (i 1).val ∧ (i 1).val < win0_3.index t (1 : Fin 2) * 512 + 512
    rw [e1]; omega

/-- So after the last point the result array holds the specification's entries. -/
theorem final (hblock : BlockIs) (c : Dev nD) : (dats m 0 c).arrAt 3 cfg0.N = wholeRows m c :=
  (dats m 0 c).arrAt_eq_of_cover 3 (wholeRows m c) (fun t _ => flushed_eq m hblock c t) covered

/-! ## The re-layout after the region, and the run -/

/-- The array of entries, read back as [2, 512, 512], is the specification's result of the three arguments: the
    array the region reads is the first argument with its leading axes merged, and the weight matrix is the second
    argument itself. Neither re-layout is opened. -/
theorem relayout_eq (c : Dev nD) :
    shapeCast S2x512x512 (wholeRows m c) shapeCasts_S1024x512_S2x512x512
      = Cert.MaxPlusMin.result Cert.KernelIdeal.Gen.shapeCasts_S2x512x512_S1024x512 Cert.KernelIdeal.Gen.shapeCasts_S1024x512_S2x512x512
          (m ((c.tc : Thread nD τ).loc main_arg0)) (m ((c.tc : Thread nD τ).loc main_arg1)) (m ((c.tc : Thread nD τ).loc main_arg2)) := by
  unfold Cert.MaxPlusMin.result
  show shapeCast S2x512x512 (Cert.MaxPlusMin.rows (V m c main_v0) (V m c main_arg1) (m ((c : Thread nD τ).loc main_arg2))) _ = _
  rw [V_main_v0, V_main_arg1]

/-- What the lines after the region leave in the [2, 512, 512] result: the re-layout of the result array. -/
theorem tail_result (hblock : BlockIs) (c : Dev nD) :
    Pipeline.afterTail₀ cfgs (dats m) 0 (V0 m) [hostOps1] c main_v3
      = shapeCast S2x512x512 (wholeRows m c) shapeCasts_S1024x512_S2x512x512 := by
  unfold Pipeline.afterTail₀
  show StableHlo.after hostOps1 _ (Proc.devRef .tc main_v3) = _
  after_results
  exact congrArg (fun A => shapeCast S2x512x512 A shapeCasts_S1024x512_S2x512x512)
    ((Pipeline.withArrays_arr spec0 launch0.win.arr_inj c _ _ 3).trans (final m hblock c))

end Arrays

/-- THE KERNEL'S RUN, READ: if every grid point's body leaves the block's result in its output block, every
    execution of the program terminates with the [2, 512, 512] result at the specification's result of the three
    arguments, and the arguments as launched. -/
theorem run (hblock : BlockIs) (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
          = Cert.MaxPlusMin.result Cert.KernelIdeal.Gen.shapeCasts_S2x512x512_S1024x512 Cert.KernelIdeal.Gen.shapeCasts_S1024x512_S2x512x512
              (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans
        ((tail_result m hblock c).trans (relayout_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.lean ====
/-
  The kernel and its reference compute the same [2, 512, 512] array on the extended reals.

  Both read the input as a [1024, 512] array X (the two leading axes merged). For a row p of X and a row o of the
  [512, 512] matrix W both take the 512 products X[p,k] · W[o,k] and return (their maximum + their minimum) +
  bias[o] (Proof/Spec.lean), and both split the leading axis back into [2, 512]. The reference takes the maximum
  and the minimum in one fold over all 512 products (Proof/RefValue.lean). The kernel works on 256 rows per grid
  point and, inside a point, on 16 rows per trip of a loop, and takes the extremes 128 columns at a time, keeping a
  running maximum and a running minimum across four chunks; since max and min are associative, commutative and
  idempotent the running extremes over the chunks are the extremes over the row (Proof/LibChunkFold.lean,
  Proof/Payload.lean). Each trip's store is a block of one function of the output block's index, the sixteen stores
  tile the block (Proof/Block.lean), and the four points' blocks tile the [1024, 512] array (Proof/KernelValue.lean).
  No step uses finiteness of the inputs: the law that joins the two sides holds for all extended reals.

  The three frame claims are the generated frames (the reference's is its generated run with the result dropped);
  the idealization rewrote no operation, so the preservation claim is trivial.
-/
import proofs.«171334_j83047487635670_2_alg».proof.Defs
import proofs.«171334_j83047487635670_2_alg».proof.Proof.Gen.Kernel
import proofs.«171334_j83047487635670_2_alg».proof.Proof.Gen.Kernel.Skeleton
import proofs.«171334_j83047487635670_2_alg».proof.Proof.Gen.Kernel.Loops
import proofs.«171334_j83047487635670_2_alg».proof.Proof.Gen.Kernel.Launch
import proofs.«171334_j83047487635670_2_alg».proof.Proof.Gen.Kernel.Points
import proofs.«171334_j83047487635670_2_alg».proof.Proof.Gen.Kernel.Frame
import proofs.«171334_j83047487635670_2_alg».proof.Proof.Gen.KernelIdeal
import proofs.«171334_j83047487635670_2_alg».proof.Proof.Gen.KernelIdeal.Skeleton
import proofs.«171334_j83047487635670_2_alg».proof.Proof.Gen.KernelIdeal.Loops
import proofs.«171334_j83047487635670_2_alg».proof.Proof.Gen.KernelIdeal.Launch
import proofs.«171334_j83047487635670_2_alg».proof.Proof.Gen.KernelIdeal.Points
import proofs.«171334_j83047487635670_2_alg».proof.Proof.Gen.KernelIdeal.Frame
import proofs.«171334_j83047487635670_2_alg».proof.Proof.Gen.ReferenceIdeal
import proofs.«171334_j83047487635670_2_alg».proof.Proof.Gen.ReferenceIdeal.Run
import proofs.«171334_j83047487635670_2_alg».proof.Proof.Gen.ReferenceIdeal.Read
import proofs.«171334_j83047487635670_2_alg».proof.Proof.Gen.Pre_finite_inputs
import proofs.«171334_j83047487635670_2_alg».proof.Proof.RefValue
import proofs.«171334_j83047487635670_2_alg».proof.Proof.Block
import proofs.«171334_j83047487635670_2_alg».proof.Proof.KernelValue
import Idealize.ShloMosaic.Adequacy
import Idealize.ShloMosaic.Init

noncomputable section

namespace Cert.Proof

open Idealize.ShloMosaic Idealize.SL.Sem

/-- The kernel as printed runs and leaves its arguments unchanged: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is host operations only: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the three arguments, the idealized kernel and the idealized reference both end with
    the specification's array of those arguments: the kernel by its run read block by block, the reference by its run
    read operation by operation. -/
theorem algebraic : Cert.algebraic_KernelIdeal_ReferenceIdeal := by
  intro m ρ m' ρ' _ hagree
  refine ⟨_, Cert.KernelIdeal.KValue.run Cert.KernelIdeal.Block.block_eq m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
